-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S1x256 : Shape := ⟨2, ![1, 256]⟩
abbrev S131071 : Shape := ⟨1, ![131071]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  main_v23

def fn {F : FTy → Type} [FloatOps F] (main_arg0 : FVec F S131072x256 .f32) (main_arg1 : FVec F S256x256 .f32) (main_arg2 : FVec F S256x256 .f32) (main_arg3 : FVec F S256x256 .f32) (main_arg4 : FVec F S1x256 .f32) (main_arg5 : IVec S131071 32) (main_arg6 : IVec S131071 32) (main_arg7 : IVec S131071 32) (main_arg8 : IVec S131071 32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S131072x256 : Shape := ⟨2, ![131072, 256]⟩
abbrev S256x256 : Shape := ⟨2, ![256, 256]⟩
abbrev S1x256 : Shape := ⟨2, ![1, 256]⟩
abbrev S131071 : Shape := ⟨1, ![131071]⟩
abbrev S4096x256 : Shape := ⟨2, ![4096, 256]⟩
abbrev S_ : Shape := ⟨0, ![]⟩
abbrev S131071x1 : Shape := ⟨2, ![131071, 1]⟩
abbrev S131071x256 : Shape := ⟨2, ![131071, 256]⟩

abbrev nBuf : Space → Nat
  | .hbm => 67
  | .vmem => 18
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S1x256, .f32⟩
  | .hbm, ⟨5, _⟩ => ⟨S131071, .i32⟩
  | .hbm, ⟨6, _⟩ => ⟨S131071, .i32⟩
  | .hbm, ⟨7, _⟩ => ⟨S131071, .i32⟩
  | .hbm, ⟨8, _⟩ => ⟨S131071, .i32⟩
  | .hbm, ⟨9, _⟩ => ⟨S131072x256, .f32⟩
  | .hbm, ⟨10, _⟩ => ⟨S131072x256, .f32⟩
  | .hbm, ⟨11, _⟩ => ⟨S131072x256, .f32⟩
  | .hbm, ⟨12, _⟩ => ⟨S131071, .f32⟩
  | .hbm, ⟨13, _⟩ => ⟨S131071, .f32⟩
  | .hbm, ⟨14, _⟩ => ⟨S_, .f32⟩
  | .hbm, ⟨15, _⟩ => ⟨S131071, .f32⟩
  | .hbm, ⟨16, _⟩ => ⟨S131071, .f32⟩
  | .hbm, ⟨17, _⟩ => ⟨S_, .f32⟩
  | .hbm, ⟨18, _⟩ => ⟨S131071, .f32⟩
  | .hbm, ⟨19, _⟩ => ⟨S131071, .f32⟩
  | .hbm, ⟨20, _⟩ => ⟨S_, .i32⟩
  | .hbm, ⟨21, _⟩ => ⟨S131071, .i32⟩
  | .hbm, ⟨22, _⟩ => ⟨S131071, .i1⟩
  | .hbm, ⟨23, _⟩ => ⟨S_, .f32⟩
  | .hbm, ⟨24, _⟩ => ⟨S131071, .f32⟩
  | .hbm, ⟨25, _⟩ => ⟨S131071, .f32⟩
  | .hbm, ⟨26, _⟩ => ⟨S131071, .f32⟩
  | .hbm, ⟨27, _⟩ => ⟨S131071, .f32⟩
  | .hbm, ⟨28, _⟩ => ⟨S_, .f32⟩
  | .hbm, ⟨29, _⟩ => ⟨S_, .f32⟩
  | .hbm, ⟨30, _⟩ => ⟨S131071, .f32⟩
  | .hbm, ⟨31, _⟩ => ⟨S131071, .f32⟩
  | .hbm, ⟨32, _⟩ => ⟨S131071, .f32⟩
  | .hbm, ⟨33, _⟩ => ⟨S_, .f32⟩
  | .hbm, ⟨34, _⟩ => ⟨S_, .f32⟩
  | .hbm, ⟨35, _⟩ => ⟨S131071, .f32⟩
  | .hbm, ⟨36, _⟩ => ⟨S131071, .f32⟩
  | .hbm, ⟨37, _⟩ => ⟨S131071x1, .f32⟩
  | .hbm, ⟨38, _⟩ => ⟨S_, .i32⟩
  | .hbm, ⟨39, _⟩ => ⟨S131071, .i32⟩
  | .hbm, ⟨40, _⟩ => ⟨S131071, .i1⟩
  | .hbm, ⟨41, _⟩ => ⟨S_, .i32⟩
  | .hbm, ⟨42, _⟩ => ⟨S131071, .i32⟩
  | .hbm, ⟨43, _⟩ => ⟨S131071, .i32⟩
  | .hbm, ⟨44, _⟩ => ⟨S131071, .i32⟩
  | .hbm, ⟨45, _⟩ => ⟨S131071x1, .i32⟩
  | .hbm, ⟨46, _⟩ => ⟨S131071x256, .f32⟩
  | .hbm, ⟨47, _⟩ => ⟨S131071x256, .f32⟩
  | .hbm, ⟨48, _⟩ => ⟨S131071x256, .f32⟩
  | .hbm, ⟨49, _⟩ => ⟨S131071x1, .f32⟩
  | .hbm, ⟨50, _⟩ => ⟨S_, .i32⟩
  | .hbm, ⟨51, _⟩ => ⟨S131071, .i32⟩
  | .hbm, ⟨52, _⟩ => ⟨S131071, .i1⟩
  | .hbm, ⟨53, _⟩ => ⟨S_, .i32⟩
  | .hbm, ⟨54, _⟩ => ⟨S131071, .i32⟩
  | .hbm, ⟨55, _⟩ => ⟨S131071, .i32⟩
  | .hbm, ⟨56, _⟩ => ⟨S131071, .i32⟩
  | .hbm, ⟨57, _⟩ => ⟨S131071x1, .i32⟩
  | .hbm, ⟨58, _⟩ => ⟨S131071x256, .f32⟩
  | .hbm, ⟨59, _⟩ => ⟨S131071x256, .f32⟩
  | .hbm, ⟨60, _⟩ => ⟨S131071x256, .f32⟩
  | .hbm, ⟨61, _⟩ => ⟨S131071x256, .f32⟩
  | .hbm, ⟨62, _⟩ => ⟨S_, .f32⟩
  | .hbm, ⟨63, _⟩ => ⟨S131072x256, .f32⟩
  | .hbm, ⟨64, _⟩ => ⟨S131071x1, .i32⟩
  | .hbm, ⟨65, _⟩ => ⟨S131072x256, .f32⟩
  | .hbm, ⟨66, _⟩ => ⟨S131072x256, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | .local _ .vmem, ⟨13, _⟩ => ⟨S4096x256, .f32⟩
  | .local _ .vmem, ⟨14, _⟩ => ⟨S4096x256, .f32⟩
  | .local _ .vmem, ⟨15, _⟩ => ⟨S1x256, .f32⟩
  | .local _ .vmem, ⟨16, _⟩ => ⟨S4096x256, .f32⟩
  | .local _ .vmem, ⟨17, _⟩ => ⟨S4096x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_c_5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_c_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S131071 : S_.BroadcastsInDim S131071 (![] : Fin 0 → Fin S131071.rank)
  bcast_S131071_S131071x1_0 : S131071.BroadcastsInDim S131071x1 (![0] : Fin 1 → Fin S131071x1.rank)
  bcast_S131071x1_S131071x256_0_1 : S131071x1.BroadcastsInDim S131071x256 (![0, 1] : Fin 2 → Fin S131071x256.rank)
  bcast_S_S131072x256 : S_.BroadcastsInDim S131072x256 (![] : Fin 0 → Fin S131072x256.rank)
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  broadcasts_S1x256_S4096x256 : S1x256.Broadcasts S4096x256
  dot_S4096x256_S256x256_S4096x256_1_0_0_1_n_n_wf : DotDims.WF S4096x256 S256x256 S4096x256 [1] [0] [0] [1] [] []
  gather_S131072x256_S131071x1_S131071x256_1_0_n_n_0_1_1256_wf : GatherDims.WF S131072x256 S131071x1 S131071x256 [1] [0] [] [0] [] 1 ![1, 256]
  scatter_S131072x256_S131071x1_S131071x256_1_0_0_1_wf : ScatterDims.WF S131072x256 S131071x1 S131071x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S131072x256.size a
  hwx0_4 : ∀ i : grid0.Coords, EltTy.bits .f32 = 32 ∨ (Rect.block (s := S131072x256) S4096x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S131072x256.size a
  hwx0_5 : ∀ i : grid0.Coords, EltTy.bits .f32 = 32 ∨ (Rect.block (s := S131072x256) S4096x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x256.size a ≤ S131072x256.size a
  hwx0_6 : ∀ i : grid0.Coords, EltTy.bits .f32 = 32 ∨ (Rect.block (s := S131072x256) S4096x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S131072x256.size a
  hwx1_0 : ∀ i : grid1.Coords, EltTy.bits .f32 = 32 ∨ (Rect.block (s := S131072x256) S4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S131072x256.size a
  hwx1_1 : ∀ i : grid1.Coords, EltTy.bits .f32 = 32 ∨ (Rect.block (s := S131072x256) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S131072x256.size a
  hwx1_3 : ∀ i : grid1.Coords, EltTy.bits .f32 = 32 ∨ (Rect.block (s := S131072x256) S4096x256.size (cc1_transform_3 i) (hinb1_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S131072x256_S131071x1_S131071x256_1_0_n_n_0_1_1256 : GatherDims S131072x256 S131071x1 S131071x256 where
  offsetDims := [1]
  collapsedSliceDims := [0]
  operandBatchingDims := []
  startIndicesBatchingDims := []
  startIndexMap := [0]
  indexVectorDim := 1
  sliceSizes := ![1, 256]
  wf := gather_S131072x256_S131071x1_S131071x256_1_0_n_n_0_1_1256_wf
def scatter_S131072x256_S131071x1_S131071x256_1_0_0_1 : ScatterDims S131072x256 S131071x1 S131071x256 where
  updateWindowDims := [1]
  insertedWindowDims := [0]
  scatterDimsToOperandDims := [0]
  indexVectorDim := 1
  wf := scatter_S131072x256_S131071x1_S131071x256_1_0_0_1_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S4096x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S4096x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S4096x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_2) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S1x256 : Shape := ⟨2, ![1, 256]⟩
abbrev S131071 : Shape := ⟨1, ![131071]⟩
abbrev S_ : Shape := ⟨0, ![]⟩
abbrev S131071x1 : Shape := ⟨2, ![131071, 1]⟩
abbrev S131071x256 : Shape := ⟨2, ![131071, 256]⟩

abbrev nBuf : Space → Nat
  | .hbm => 72
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S1x256, .f32⟩
  | .hbm, ⟨5, _⟩ => ⟨S131071, .i32⟩
  | .hbm, ⟨6, _⟩ => ⟨S131071, .i32⟩
  | .hbm, ⟨7, _⟩ => ⟨S131071, .i32⟩
  | .hbm, ⟨8, _⟩ => ⟨S131071, .i32⟩
  | .hbm, ⟨9, _⟩ => ⟨S131072x256, .f32⟩
  | .hbm, ⟨10, _⟩ => ⟨S131072x256, .f32⟩
  | .hbm, ⟨11, _⟩ => ⟨S131071, .f32⟩
  | .hbm, ⟨12, _⟩ => ⟨S131071, .f32⟩
  | .hbm, ⟨13, _⟩ => ⟨S_, .f32⟩
  | .hbm, ⟨14, _⟩ => ⟨S131071, .f32⟩
  | .hbm, ⟨15, _⟩ => ⟨S131071, .f32⟩
  | .hbm, ⟨16, _⟩ => ⟨S_, .f32⟩
  | .hbm, ⟨17, _⟩ => ⟨S131071, .f32⟩
  | .hbm, ⟨18, _⟩ => ⟨S131071, .f32⟩
  | .hbm, ⟨19, _⟩ => ⟨S_, .i32⟩
  | .hbm, ⟨20, _⟩ => ⟨S131071, .i32⟩
  | .hbm, ⟨21, _⟩ => ⟨S131071, .i1⟩
  | .hbm, ⟨22, _⟩ => ⟨S_, .f32⟩
  | .hbm, ⟨23, _⟩ => ⟨S131071, .f32⟩
  | .hbm, ⟨24, _⟩ => ⟨S131071, .f32⟩
  | .hbm, ⟨25, _⟩ => ⟨S131071, .f32⟩
  | .hbm, ⟨26, _⟩ => ⟨S131071, .f32⟩
  | .hbm, ⟨27, _⟩ => ⟨S_, .f32⟩
  | .hbm, ⟨28, _⟩ => ⟨S_, .f32⟩
  | .hbm, ⟨29, _⟩ => ⟨S131071, .f32⟩
  | .hbm, ⟨30, _⟩ => ⟨S131071, .f32⟩
  | .hbm, ⟨31, _⟩ => ⟨S131071, .f32⟩
  | .hbm, ⟨32, _⟩ => ⟨S_, .f32⟩
  | .hbm, ⟨33, _⟩ => ⟨S_, .f32⟩
  | .hbm, ⟨34, _⟩ => ⟨S131071, .f32⟩
  | .hbm, ⟨35, _⟩ => ⟨S131071, .f32⟩
  | .hbm, ⟨36, _⟩ => ⟨S131071x1, .f32⟩
  | .hbm, ⟨37, _⟩ => ⟨S_, .i32⟩
  | .hbm, ⟨38, _⟩ => ⟨S131071, .i32⟩
  | .hbm, ⟨39, _⟩ => ⟨S131071, .i1⟩
  | .hbm, ⟨40, _⟩ => ⟨S_, .i32⟩
  | .hbm, ⟨41, _⟩ => ⟨S131071, .i32⟩
  | .hbm, ⟨42, _⟩ => ⟨S131071, .i32⟩
  | .hbm, ⟨43, _⟩ => ⟨S131071, .i32⟩
  | .hbm, ⟨44, _⟩ => ⟨S131071x1, .i32⟩
  | .hbm, ⟨45, _⟩ => ⟨S131071x256, .f32⟩
  | .hbm, ⟨46, _⟩ => ⟨S131071x256, .f32⟩
  | .hbm, ⟨47, _⟩ => ⟨S131071x256, .f32⟩
  | .hbm, ⟨48, _⟩ => ⟨S131071x1, .f32⟩
  | .hbm, ⟨49, _⟩ => ⟨S_, .i32⟩
  | .hbm, ⟨50, _⟩ => ⟨S131071, .i32⟩
  | .hbm, ⟨51, _⟩ => ⟨S131071, .i1⟩
  | .hbm, ⟨52, _⟩ => ⟨S_, .i32⟩
  | .hbm, ⟨53, _⟩ => ⟨S131071, .i32⟩
  | .hbm, ⟨54, _⟩ => ⟨S131071, .i32⟩
  | .hbm, ⟨55, _⟩ => ⟨S131071, .i32⟩
  | .hbm, ⟨56, _⟩ => ⟨S131071x1, .i32⟩
  | .hbm, ⟨57, _⟩ => ⟨S131071x256, .f32⟩
  | .hbm, ⟨58, _⟩ => ⟨S131071x256, .f32⟩
  | .hbm, ⟨59, _⟩ => ⟨S131071x256, .f32⟩
  | .hbm, ⟨60, _⟩ => ⟨S131071x256, .f32⟩
  | .hbm, ⟨61, _⟩ => ⟨S_, .f32⟩
  | .hbm, ⟨62, _⟩ => ⟨S131072x256, .f32⟩
  | .hbm, ⟨63, _⟩ => ⟨S131071x1, .i32⟩
  | .hbm, ⟨64, _⟩ => ⟨S131072x256, .f32⟩
  | .hbm, ⟨65, _⟩ => ⟨S131072x256, .f32⟩
  | .hbm, ⟨66, _⟩ => ⟨S131072x256, .f32⟩
  | .hbm, ⟨67, _⟩ => ⟨S131072x256, .f32⟩
  | .hbm, ⟨68, _⟩ => ⟨S131072x256, .f32⟩
  | .hbm, ⟨69, _⟩ => ⟨S_, .f32⟩
  | .hbm, ⟨70, _⟩ => ⟨S131072x256, .f32⟩
  | .hbm, ⟨71, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call2_cst : Ref sig .tc := ⟨.hbm, 69, rfl⟩
abbrev main_call2_v0 : Ref sig .tc := ⟨.hbm, 70, rfl⟩
abbrev main_v45 : Ref sig .tc := ⟨.hbm, 71, rfl⟩

abbrev nD : Nat := 1
abbrev τ : Topo := Topo.v7x

variable {F : FTy → Type} [FloatOps F]

class Facts₀ : Prop where
  bcast_S_S131071 : S_.BroadcastsInDim S131071 (![] : Fin 0 → Fin S131071.rank)
  bcast_S131071_S131071x1_0 : S131071.BroadcastsInDim S131071x1 (![0] : Fin 1 → Fin S131071x1.rank)
  bcast_S131071x1_S131071x256_0_1 : S131071x1.BroadcastsInDim S131071x256 (![0, 1] : Fin 2 → Fin S131071x256.rank)
  bcast_S_S131072x256 : S_.BroadcastsInDim S131072x256 (![] : Fin 0 → Fin S131072x256.rank)
  bcast_S1x256_S131072x256_0_1 : S1x256.BroadcastsInDim S131072x256 (![0, 1] : Fin 2 → Fin S131072x256.rank)
  dot_S131072x256_S256x256_S131072x256_1_0_0_1_n_n_wf : DotDims.WF S131072x256 S256x256 S131072x256 [1] [0] [0] [1] [] []
  gather_S131072x256_S131071x1_S131071x256_1_0_n_n_0_1_1256_wf : GatherDims.WF S131072x256 S131071x1 S131071x256 [1] [0] [] [0] [] 1 ![1, 256]
  scatter_S131072x256_S131071x1_S131071x256_1_0_0_1_wf : ScatterDims.WF S131072x256 S131071x1 S131071x256 [1] [0] [0] 1

variable [Facts₀]

def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def gather_S131072x256_S131071x1_S131071x256_1_0_n_n_0_1_1256 : GatherDims S131072x256 S131071x1 S131071x256 where
  offsetDims := [1]
  collapsedSliceDims := [0]
  operandBatchingDims := []
  startIndicesBatchingDims := []
  startIndexMap := [0]
  indexVectorDim := 1
  sliceSizes := ![1, 256]
  wf := gather_S131072x256_S131071x1_S131071x256_1_0_n_n_0_1_1256_wf
def scatter_S131072x256_S131071x1_S131071x256_1_0_0_1 : ScatterDims S131072x256 S131071x1 S131071x256 where
  updateWindowDims := [1]
  insertedWindowDims := [0]
  scatterDimsToOperandDims := [0]
  indexVectorDim := 1
  wf := scatter_S131072x256_S131071x1_S131071x256_1_0_0_1_wf

class Facts : Prop extends Facts₀ where

variable [Facts]
-- ==== Proof.KernelRun.lean ====
/-
  THE RUN OF THE TWO-KERNEL PROGRAM, WITH ITS RESULT NAMED.

  The program is a projection kernel, a stretch of array operations between the kernels, and a combining kernel. Every
  weakly fair execution terminates without a fault; at the end the result buffer holds what the last boundary of the
  run holds there — the combining kernel's output array after its last grid point, `W7` at the result — and the
  argument arrays are as launched. The contents at each boundary are a fold: the launch memory, the projection
  kernel's three output arrays written over it, the array operations' results, the combining kernel's output array.
-/
import proofs.«144186_j85246510891461_1_alg».proof.Proof.Gen.KernelIdeal.Frame

set_option maxRecDepth 16384

noncomputable section

namespace Cert.TreeConv.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched: the final state agrees with the last boundary on every buffer
    that outlives the kernels, the result buffer among them. -/
theorem run : θ_run defs (onTc (τ := τ) (main (F := F))) ⟨m, fun _ => 0, ρ⟩ (fun r => ∀ c : Dev nD,
      r.2.mem ((c.tc : Thread nD τ).loc main_v40) = W7 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v40 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.TreeConv.KernelRun

end
-- ==== Proof.Spec.lean ====
/-
  THE TREE-CONVOLUTION CELL AS TWO FUNCTIONS OF WHOLE ARRAYS.

  Every node of a tree carries a feature row. Each non-root node (an edge, read child → parent) sends its parent a
  message: its row projected by the left matrix times a left weight, plus its row projected by the right matrix times
  a right weight, the two weights read off the child's position among its siblings (an only child sends the left
  projection alone; otherwise the weights are (cnt - 1 - pos) / max (cnt - 1) 1 and pos / max (cnt - 1) 1). A parent
  sums the messages it receives (`agg`), adds its own row projected by the top matrix and a bias row, and clamps
  below at zero (`cell`). Both programs compute `cell (agg HL HR …) HT bias`; they differ only in how the three
  projections HL, HR, HT are produced. The functions are spelt in the vocabulary of the plain program's shapes.
-/
import proofs.«144186_j85246510891461_1_alg».proof.ReferenceIdeal
import proofs.«144186_j85246510891461_1_alg».proof.Proof.Gen.ReferenceIdeal
import Idealize.ShloMosaic.PureOps.Ideal

noncomputable section

namespace Cert.TreeConv

open Idealize.ShloMosaic Cert.ReferenceIdeal Cert.ReferenceIdeal.Gen

/-- A whole [131072, 256] array of extended reals. -/
abbrev Mat := (⟨S131072x256, .f32⟩ : BufTy).Contents (Elt Ideal)
/-- A weight matrix. -/
abbrev Wt := (⟨S256x256, .f32⟩ : BufTy).Contents (Elt Ideal)
/-- The bias row. -/
abbrev Row := (⟨S1x256, .f32⟩ : BufTy).Contents (Elt Ideal)
/-- One integer per edge. -/
abbrev Edges := (⟨S131071, .i32⟩ : BufTy).Contents (Elt Ideal)

/-- The messages summed into the parents: row `dst e` receives, for each edge `e`,
    `lw e · HL[src e] + rw e · HR[src e]`, the weights those of the child's position among its siblings. -/
def agg (HL HR : Mat) (src dst pos cnt : Edges) : Mat :=
  (Host.scatterAdd (F := Ideal) scatter_S131072x256_S131071x1_S131071x256_1_0_0_1 (broadcastInDim S131072x256 ![] bcast_S_S131072x256 (constant (F := Ideal) S_ .f32 0x00000000#32)) (broadcastInDim S131071x1 ![0] bcast_S131071_S131071x1_0 dst) (addf (mulf (broadcastInDim S131071x256 ![0, 1] bcast_S131071x1_S131071x256_0_1 (broadcastInDim S131071x1 ![0] bcast_S131071_S131071x1_0 (select (cmpi .eq cnt (broadcastInDim S131071 ![] bcast_S_S131071 (constantI S_ 32 1#32))) (broadcastInDim S131071 ![] bcast_S_S131071 (id (constant (F := Ideal) S_ .f32 0x3F800000#32))) (Host.divf (F := Ideal) (subf (subf (sitofp (F := Ideal) .f32 cnt) (broadcastInDim S131071 ![] bcast_S_S131071 (constant (F := Ideal) S_ .f32 0x3F800000#32))) (sitofp (F := Ideal) .f32 pos)) (maximumf (subf (sitofp (F := Ideal) .f32 cnt) (broadcastInDim S131071 ![] bcast_S_S131071 (constant (F := Ideal) S_ .f32 0x3F800000#32))) (broadcastInDim S131071 ![] bcast_S_S131071 (constant (F := Ideal) S_ .f32 0x3F800000#32))))))) (Host.gather gather_S131072x256_S131071x1_S131071x256_1_0_n_n_0_1_1256 HL (broadcastInDim S131071x1 ![0] bcast_S131071_S131071x1_0 (select (cmpi .slt src (broadcastInDim S131071 ![] bcast_S_S131071 (constantI S_ 32 0#32))) (addi src (broadcastInDim S131071 ![] bcast_S_S131071 (constantI S_ 32 131072#32))) src)))) (mulf (broadcastInDim S131071x256 ![0, 1] bcast_S131071x1_S131071x256_0_1 (broadcastInDim S131071x1 ![0] bcast_S131071_S131071x1_0 (select (cmpi .eq cnt (broadcastInDim S131071 ![] bcast_S_S131071 (constantI S_ 32 1#32))) (broadcastInDim S131071 ![] bcast_S_S131071 (id (constant (F := Ideal) S_ .f32 0x00000000#32))) (Host.divf (F := Ideal) (sitofp (F := Ideal) .f32 pos) (maximumf (subf (sitofp (F := Ideal) .f32 cnt) (broadcastInDim S131071 ![] bcast_S_S131071 (constant (F := Ideal) S_ .f32 0x3F800000#32))) (broadcastInDim S131071 ![] bcast_S_S131071 (constant (F := Ideal) S_ .f32 0x3F800000#32))))))) (Host.gather gather_S131072x256_S131071x1_S131071x256_1_0_n_n_0_1_1256 HR (broadcastInDim S131071x1 ![0] bcast_S131071_S131071x1_0 (select (cmpi .slt src (broadcastInDim S131071 ![] bcast_S_S131071 (constantI S_ 32 0#32))) (addi src (broadcastInDim S131071 ![] bcast_S_S131071 (constantI S_ 32 131072#32))) src))))))

/-- The cell's output: the summed messages plus the node's own top projection plus the bias row, clamped at zero. -/
def cell (A HT : Mat) (bias : Row) : Mat :=
  maximumf (addf (addf A HT) (broadcastInDim S131072x256 ![0, 1] bcast_S1x256_S131072x256_0_1 bias)) (broadcastInDim S131072x256 ![] bcast_S_S131072x256 (constant (F := Ideal) S_ .f32 0x00000000#32))

/-- The three projections of the plain program: whole-array products. -/
def proj (h : Mat) (W : Wt) : Mat :=
  Host.dotGeneral (F := Ideal) (φ₁ := .f32) (φ₂ := .f32) dot_S131072x256_S256x256_S131072x256_1_0_0_1_n_n none h W

end Cert.TreeConv

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«144186_j85246510891461_1_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.Project.lean ====
/-
  THE PROJECTION KERNEL'S OUTPUT ARRAYS ARE WHOLE-ARRAY PRODUCTS.

  The kernel walks the 131072 rows of node features in 32 blocks of 4096 rows. At block t it multiplies the block,
  a [4096, 256] matrix, by each of the three [256, 256] weight matrices, contracting all 256 columns at once into a
  zero accumulator, and writes the three products to rows [4096 t, 4096 (t + 1)) of its three output arrays. Over the
  extended reals entry (p, q) of such a product is the sum over k < 256 of block(p, k) · weights(k, q), and row p of
  block t is row 4096 t + p of the array; so what point t writes back is block t of the whole-array product
  h · W, whose entry (r, q) is the same sum over k of h(r, k) · W(k, q). The blocks tile the array (row r lies in
  the block of point r / 4096), so after the last point each output array is the whole-array product.
-/
import proofs.«144186_j85246510891461_1_alg».proof.Proof.Gen.KernelIdeal.Frame
import proofs.«144186_j85246510891461_1_alg».proof.Proof.Spec
import proofs.«144186_j85246510891461_1_alg».proof.Proof.LibRowReads
import Idealize.ShloMosaic.Lib.Pipeline.Value
import Idealize.ShloMosaic.Lib.ValueIdx

set_option maxRecDepth 16384

noncomputable section

open scoped BigOperators

namespace Cert.TreeConv.Project

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- The left projection's payload at an element: row p of the block of rows against column q of the weights (the
    change of float format is the identity on the extended reals, the accumulator starts at zero). -/
theorem left_at (x : Vec Ideal S4096x256 .f32) (w : Vec Ideal S256x256 .f32) (p : Fin 4096) (q : Fin 256) :
    k0_pay2 (F := Ideal) x w (ix2 p q) = ∑ k : Fin 256, x (ix2 p k) * w (ix2 k q) := by
  unfold k0_pay2 k0_pay1
  exact Cert.Lib.matmul_zero_at dot_S4096x256_S256x256_S4096x256_1_0_0_1_n_n rfl rfl rfl rfl rfl rfl none _ _ p q

/-- The right projection's payload at an element. -/
theorem right_at (x : Vec Ideal S4096x256 .f32) (w : Vec Ideal S256x256 .f32) (p : Fin 4096) (q : Fin 256) :
    k0_pay3 (F := Ideal) x w (ix2 p q) = ∑ k : Fin 256, x (ix2 p k) * w (ix2 k q) := by
  unfold k0_pay3 k0_pay1
  exact Cert.Lib.matmul_zero_at dot_S4096x256_S256x256_S4096x256_1_0_0_1_n_n rfl rfl rfl rfl rfl rfl none _ _ p q

/-- The top projection's payload at an element. -/
theorem top_at (x : Vec Ideal S4096x256 .f32) (w : Vec Ideal S256x256 .f32) (p : Fin 4096) (q : Fin 256) :
    k0_pay4 (F := Ideal) x w (ix2 p q) = ∑ k : Fin 256, x (ix2 p k) * w (ix2 k q) := by
  unfold k0_pay4 k0_pay1
  exact Cert.Lib.matmul_zero_at dot_S4096x256_S256x256_S4096x256_1_0_0_1_n_n rfl rfl rfl rfl rfl rfl none _ _ p q

/-- The plain program's whole-array product at an element: the same sum. -/
theorem proj_at (h : Mat) (W : Wt) (r : Fin 131072) (q : Fin 256) :
    proj h W (ix2 r q) = ∑ k : Fin 256, h (ix2 r k) * W (ix2 k q) := by
  unfold proj
  exact Cert.Lib.dotGeneral_at Cert.ReferenceIdeal.dot_S131072x256_S256x256_S131072x256_1_0_0_1_n_n rfl rfl rfl rfl rfl rfl none h W r q

/-- The index maps over the grid: at point t the rows window and the three output windows sit at block row t, the
    three weight windows at their only block. -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- Row p of block t of the node features is row 4096 t + p of the array. -/
theorem rows_block (c : Dev nD) (t : Fin cfg0.N) (ht : t.val < 32) (p : Fin 4096) (k : Fin 256) :
    iblk0 V c 0 t (ix2 p k) = V c main_arg0 (ix2 (⟨t.val * 4096 + p.val, by omega⟩ : Fin 131072) k) := by
  obtain ⟨e00, e01, -⟩ := idx_facts t
  show V c main_arg0 (((cfg0.win 0).blk t).view.emb (ix2 p k)) = _
  refine congrArg (V c main_arg0) ?_
  funext a; apply Fin.ext
  match a with
  | ⟨0, _⟩ => show win0_0.index t (0 : Fin 2) * 4096 + 1 * p.val = t.val * 4096 + p.val; omega
  | ⟨1, _⟩ => show win0_0.index t (1 : Fin 2) * 256 + 1 * k.val = k.val; omega

/-- A weight window's one block is the whole weight matrix. -/
theorem left_block (c : Dev nD) (t : Fin cfg0.N) (k q : Fin 256) : iblk0 V c 1 t (ix2 k q) = V c main_arg1 (ix2 k q) := by
  obtain ⟨-, -, e10, e11, -⟩ := idx_facts t
  show V c main_arg1 (((cfg0.win 1).blk t).view.emb (ix2 k q)) = _
  refine congrArg (V c main_arg1) ?_
  funext a; apply Fin.ext
  match a with
  | ⟨0, _⟩ => show win0_1.index t (0 : Fin 2) * 256 + 1 * k.val = k.val; omega
  | ⟨1, _⟩ => show win0_1.index t (1 : Fin 2) * 256 + 1 * q.val = q.val; omega

theorem right_block (c : Dev nD) (t : Fin cfg0.N) (k q : Fin 256) : iblk0 V c 2 t (ix2 k q) = V c main_arg2 (ix2 k q) := by
  obtain ⟨-, -, -, -, e20, e21, -⟩ := idx_facts t
  show V c main_arg2 (((cfg0.win 2).blk t).view.emb (ix2 k q)) = _
  refine congrArg (V c main_arg2) ?_
  funext a; apply Fin.ext
  match a with
  | ⟨0, _⟩ => show win0_2.index t (0 : Fin 2) * 256 + 1 * k.val = k.val; omega
  | ⟨1, _⟩ => show win0_2.index t (1 : Fin 2) * 256 + 1 * q.val = q.val; omega

theorem top_block (c : Dev nD) (t : Fin cfg0.N) (k q : Fin 256) : iblk0 V c 3 t (ix2 k q) = V c main_arg3 (ix2 k q) := by
  obtain ⟨-, -, -, -, -, -, e30, e31, -⟩ := idx_facts t
  show V c main_arg3 (((cfg0.win 3).blk t).view.emb (ix2 k q)) = _
  refine congrArg (V c main_arg3) ?_
  funext a; apply Fin.ext
  match a with
  | ⟨0, _⟩ => show win0_3.index t (0 : Fin 2) * 256 + 1 * k.val = k.val; omega
  | ⟨1, _⟩ => show win0_3.index t (1 : Fin 2) * 256 + 1 * q.val = q.val; omega

/-- What point t writes back through output window 4 is block t of the whole-array product. -/
theorem flushed4_eq (c : Dev nD) (t : Fin cfg0.N) :
    (dat0 (F := Ideal) V c).flushed 4 t
      = ((cfg0.win 4).blk t).view.read (Elt Ideal) (proj (V c main_arg0) (V c main_arg1)) := by
  show (cfg0.win 4).cut (grid0.coords t) ((dat0 V c).after 4 t) = _
  rw [after0_4]
  unfold out0_4
  rw [View.canon_unit_zero hz]
  simp only [View.ld_unit_zero (S := S4096x256) hz, View.ld_unit_zero (S := S256x256) hz]
  funext j
  obtain ⟨p, q, rfl⟩ : ∃ (p : Fin 4096) (q : Fin 256), j = ix2 p q := ⟨j 0, j 1, eq_ix2 j⟩
  have hidx := idx_facts t
  have ht : t.val < 32 := lt_of_lt_of_eq t.isLt (show cfg0.N = 32 from N_0)
  show k0_pay2 (iblk0 V c 0 t) (iblk0 V c 1 t) (ix2 p q)
    = proj (V c main_arg0) (V c main_arg1) (((cfg0.win 4).blk t).view.emb (ix2 p q))
  refine (left_at _ _ p q).trans ?_
  have hemb : ((cfg0.win 4).blk t).view.emb (ix2 p q) = ix2 (⟨t.val * 4096 + p.val, by omega⟩ : Fin 131072) q := by
    funext a; apply Fin.ext
    match a with
    | ⟨0, _⟩ => show win0_4.index t (0 : Fin 2) * 4096 + 1 * p.val = t.val * 4096 + p.val; omega
    | ⟨1, _⟩ => show win0_4.index t (1 : Fin 2) * 256 + 1 * q.val = q.val; omega
  rw [hemb, proj_at]
  refine Finset.sum_congr rfl fun k _ => ?_
  rw [rows_block V c t ht p k, left_block V c t k q]

/-- What point t writes back through output window 5 is block t of the whole-array product. -/
theorem flushed5_eq (c : Dev nD) (t : Fin cfg0.N) :
    (dat0 (F := Ideal) V c).flushed 5 t
      = ((cfg0.win 5).blk t).view.read (Elt Ideal) (proj (V c main_arg0) (V c main_arg2)) := by
  show (cfg0.win 5).cut (grid0.coords t) ((dat0 V c).after 5 t) = _
  rw [after0_5]
  unfold out0_5
  rw [View.canon_unit_zero hz]
  simp only [View.ld_unit_zero (S := S4096x256) hz, View.ld_unit_zero (S := S256x256) hz]
  funext j
  obtain ⟨p, q, rfl⟩ : ∃ (p : Fin 4096) (q : Fin 256), j = ix2 p q := ⟨j 0, j 1, eq_ix2 j⟩
  have hidx := idx_facts t
  have ht : t.val < 32 := lt_of_lt_of_eq t.isLt (show cfg0.N = 32 from N_0)
  show k0_pay3 (iblk0 V c 0 t) (iblk0 V c 2 t) (ix2 p q)
    = proj (V c main_arg0) (V c main_arg2) (((cfg0.win 5).blk t).view.emb (ix2 p q))
  refine (right_at _ _ p q).trans ?_
  have hemb : ((cfg0.win 5).blk t).view.emb (ix2 p q) = ix2 (⟨t.val * 4096 + p.val, by omega⟩ : Fin 131072) q := by
    funext a; apply Fin.ext
    match a with
    | ⟨0, _⟩ => show win0_5.index t (0 : Fin 2) * 4096 + 1 * p.val = t.val * 4096 + p.val; omega
    | ⟨1, _⟩ => show win0_5.index t (1 : Fin 2) * 256 + 1 * q.val = q.val; omega
  rw [hemb, proj_at]
  refine Finset.sum_congr rfl fun k _ => ?_
  rw [rows_block V c t ht p k, right_block V c t k q]

/-- What point t writes back through output window 6 is block t of the whole-array product. -/
theorem flushed6_eq (c : Dev nD) (t : Fin cfg0.N) :
    (dat0 (F := Ideal) V c).flushed 6 t
      = ((cfg0.win 6).blk t).view.read (Elt Ideal) (proj (V c main_arg0) (V c main_arg3)) := by
  show (cfg0.win 6).cut (grid0.coords t) ((dat0 V c).after 6 t) = _
  rw [after0_6]
  unfold out0_6
  rw [View.canon_unit_zero hz]
  simp only [View.ld_unit_zero (S := S4096x256) hz, View.ld_unit_zero (S := S256x256) hz]
  funext j
  obtain ⟨p, q, rfl⟩ : ∃ (p : Fin 4096) (q : Fin 256), j = ix2 p q := ⟨j 0, j 1, eq_ix2 j⟩
  have hidx := idx_facts t
  have ht : t.val < 32 := lt_of_lt_of_eq t.isLt (show cfg0.N = 32 from N_0)
  show k0_pay4 (iblk0 V c 0 t) (iblk0 V c 3 t) (ix2 p q)
    = proj (V c main_arg0) (V c main_arg3) (((cfg0.win 6).blk t).view.emb (ix2 p q))
  refine (top_at _ _ p q).trans ?_
  have hemb : ((cfg0.win 6).blk t).view.emb (ix2 p q) = ix2 (⟨t.val * 4096 + p.val, by omega⟩ : Fin 131072) q := by
    funext a; apply Fin.ext
    match a with
    | ⟨0, _⟩ => show win0_6.index t (0 : Fin 2) * 4096 + 1 * p.val = t.val * 4096 + p.val; omega
    | ⟨1, _⟩ => show win0_6.index t (1 : Fin 2) * 256 + 1 * q.val = q.val; omega
  rw [hemb, proj_at]
  refine Finset.sum_congr rfl fun k _ => ?_
  rw [rows_block V c t ht p k, top_block V c t k q]

/-- An index of the array is in point t's block exactly when each coordinate is in the block's range on its axis. -/
theorem mem_blk4 (t : Fin cfg0.N) (i : S131072x256.Idx) :
    i ∈ ((cfg0.win 4).blk t).view.set ↔ ∀ a : Fin 2, win0_4.index t a * S4096x256.size a ≤ (i a).val ∧ (i a).val < win0_4.index t a * S4096x256.size a + S4096x256.size a := by
  show i ∈ ((View.whole main_v0_0).slice (win0_4.rect t)).set ↔ _
  rw [View.set_slice_whole, Rect.mem_set_unit]
  exact Iff.rfl

/-- The blocks of 4096 rows tile the array: row r is in the block of point r / 4096. -/
theorem cover4 (i : S131072x256.Idx) :
    ∃ t : Fin cfg0.N, (cfg0.win 4).flush t = true ∧ i ∈ ((cfg0.win 4).blk t).view.set := by
  have hi0 : (i 0).val < 131072 := (i 0).isLt
  have hi1 : (i 1).val < 256 := (i 1).isLt
  have hN : (i 0).val / 4096 < cfg0.N := lt_of_lt_of_eq (by omega : (i 0).val / 4096 < 32) (show cfg0.N = 32 from N_0).symm
  have hidx := idx_facts ⟨(i 0).val / 4096, hN⟩
  refine ⟨⟨(i 0).val / 4096, hN⟩, flush0_4 _, ?_⟩
  rw [mem_blk4]
  intro a
  match a with
  | ⟨0, _⟩ =>
    show win0_4.index ⟨(i 0).val / 4096, hN⟩ (0 : Fin 2) * 4096 ≤ (i 0).val ∧ (i 0).val < win0_4.index ⟨(i 0).val / 4096, hN⟩ (0 : Fin 2) * 4096 + 4096
    have hv : (⟨(i 0).val / 4096, hN⟩ : Fin cfg0.N).val = (i 0).val / 4096 := rfl
    omega
  | ⟨1, _⟩ =>
    show win0_4.index ⟨(i 0).val / 4096, hN⟩ (1 : Fin 2) * 256 ≤ (i 1).val ∧ (i 1).val < win0_4.index ⟨(i 0).val / 4096, hN⟩ (1 : Fin 2) * 256 + 256
    omega

/-- An index of the array is in point t's block exactly when each coordinate is in the block's range on its axis. -/
theorem mem_blk5 (t : Fin cfg0.N) (i : S131072x256.Idx) :
    i ∈ ((cfg0.win 5).blk t).view.set ↔ ∀ a : Fin 2, win0_5.index t a * S4096x256.size a ≤ (i a).val ∧ (i a).val < win0_5.index t a * S4096x256.size a + S4096x256.size a := by
  show i ∈ ((View.whole main_v0_1).slice (win0_5.rect t)).set ↔ _
  rw [View.set_slice_whole, Rect.mem_set_unit]
  exact Iff.rfl

/-- The blocks of 4096 rows tile the array: row r is in the block of point r / 4096. -/
theorem cover5 (i : S131072x256.Idx) :
    ∃ t : Fin cfg0.N, (cfg0.win 5).flush t = true ∧ i ∈ ((cfg0.win 5).blk t).view.set := by
  have hi0 : (i 0).val < 131072 := (i 0).isLt
  have hi1 : (i 1).val < 256 := (i 1).isLt
  have hN : (i 0).val / 4096 < cfg0.N := lt_of_lt_of_eq (by omega : (i 0).val / 4096 < 32) (show cfg0.N = 32 from N_0).symm
  have hidx := idx_facts ⟨(i 0).val / 4096, hN⟩
  refine ⟨⟨(i 0).val / 4096, hN⟩, flush0_5 _, ?_⟩
  rw [mem_blk5]
  intro a
  match a with
  | ⟨0, _⟩ =>
    show win0_5.index ⟨(i 0).val / 4096, hN⟩ (0 : Fin 2) * 4096 ≤ (i 0).val ∧ (i 0).val < win0_5.index ⟨(i 0).val / 4096, hN⟩ (0 : Fin 2) * 4096 + 4096
    have hv : (⟨(i 0).val / 4096, hN⟩ : Fin cfg0.N).val = (i 0).val / 4096 := rfl
    omega
  | ⟨1, _⟩ =>
    show win0_5.index ⟨(i 0).val / 4096, hN⟩ (1 : Fin 2) * 256 ≤ (i 1).val ∧ (i 1).val < win0_5.index ⟨(i 0).val / 4096, hN⟩ (1 : Fin 2) * 256 + 256
    omega

/-- An index of the array is in point t's block exactly when each coordinate is in the block's range on its axis. -/
theorem mem_blk6 (t : Fin cfg0.N) (i : S131072x256.Idx) :
    i ∈ ((cfg0.win 6).blk t).view.set ↔ ∀ a : Fin 2, win0_6.index t a * S4096x256.size a ≤ (i a).val ∧ (i a).val < win0_6.index t a * S4096x256.size a + S4096x256.size a := by
  show i ∈ ((View.whole main_v0_2).slice (win0_6.rect t)).set ↔ _
  rw [View.set_slice_whole, Rect.mem_set_unit]
  exact Iff.rfl

/-- The blocks of 4096 rows tile the array: row r is in the block of point r / 4096. -/
theorem cover6 (i : S131072x256.Idx) :
    ∃ t : Fin cfg0.N, (cfg0.win 6).flush t = true ∧ i ∈ ((cfg0.win 6).blk t).view.set := by
  have hi0 : (i 0).val < 131072 := (i 0).isLt
  have hi1 : (i 1).val < 256 := (i 1).isLt
  have hN : (i 0).val / 4096 < cfg0.N := lt_of_lt_of_eq (by omega : (i 0).val / 4096 < 32) (show cfg0.N = 32 from N_0).symm
  have hidx := idx_facts ⟨(i 0).val / 4096, hN⟩
  refine ⟨⟨(i 0).val / 4096, hN⟩, flush0_6 _, ?_⟩
  rw [mem_blk6]
  intro a
  match a with
  | ⟨0, _⟩ =>
    show win0_6.index ⟨(i 0).val / 4096, hN⟩ (0 : Fin 2) * 4096 ≤ (i 0).val ∧ (i 0).val < win0_6.index ⟨(i 0).val / 4096, hN⟩ (0 : Fin 2) * 4096 + 4096
    have hv : (⟨(i 0).val / 4096, hN⟩ : Fin cfg0.N).val = (i 0).val / 4096 := rfl
    omega
  | ⟨1, _⟩ =>
    show win0_6.index ⟨(i 0).val / 4096, hN⟩ (1 : Fin 2) * 256 ≤ (i 1).val ∧ (i 1).val < win0_6.index ⟨(i 0).val / 4096, hN⟩ (1 : Fin 2) * 256 + 256
    omega

/-- THE PROJECTION KERNEL'S THREE OUTPUT ARRAYS after its last grid point are the whole-array products of the node
    features with the left, right and top weights. -/
theorem left_array (c : Dev nD) : (dat0 (F := Ideal) V c).arrAt 4 cfg0.N = proj (V c main_arg0) (V c main_arg1) :=
  (dat0 V c).arrAt_eq_of_cover 4 _ (fun t _ => flushed4_eq V c t) cover4
theorem right_array (c : Dev nD) : (dat0 (F := Ideal) V c).arrAt 5 cfg0.N = proj (V c main_arg0) (V c main_arg2) :=
  (dat0 V c).arrAt_eq_of_cover 5 _ (fun t _ => flushed5_eq V c t) cover5
theorem top_array (c : Dev nD) : (dat0 (F := Ideal) V c).arrAt 6 cfg0.N = proj (V c main_arg0) (V c main_arg3) :=
  (dat0 V c).arrAt_eq_of_cover 6 _ (fun t _ => flushed6_eq V c t) cover6

end Cert.TreeConv.Project

end
-- ==== Proof.Combine.lean ====
/-
  THE COMBINING KERNEL'S OUTPUT ARRAY IS THE CELL OF THE ARRAYS IT READS.

  The kernel walks the rows in 32 blocks of 4096. At block t it loads rows [4096 t, 4096 (t + 1)) of its first two
  operands and the whole bias row, adds the two blocks, adds the bias row repeated down the block, takes the maximum
  with zero, and writes the result to the same rows of its output. At entry (p, q) of block t that is
  max (A(r, q) + T(r, q) + bias(0, q)) 0 with r = 4096 t + p, which is the cell's entry (r, q); the blocks tile the
  array, so after the last point the output array is the cell of the three arrays as the kernel finds them.
-/
import proofs.«144186_j85246510891461_1_alg».proof.Proof.Gen.KernelIdeal.Frame
import proofs.«144186_j85246510891461_1_alg».proof.Proof.Spec
import proofs.«144186_j85246510891461_1_alg».proof.Proof.LibRowReads
import Idealize.ShloMosaic.Lib.Pipeline.Value
import Idealize.ShloMosaic.Lib.ValueIdx
import Idealize.ShloMosaic.Lib.ValueLayout

set_option maxRecDepth 16384

noncomputable section

namespace Cert.TreeConv.Combine

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- The combining body at an element. -/
theorem payload_at (x0 x1 : Vec Ideal S4096x256 .f32) (x2 : Vec Ideal S1x256 .f32) (p : Fin 4096) (q : Fin 256) :
    k1_pay1 (F := Ideal) x0 x1 x2 (ix2 p q)
      = max (x0 (ix2 p q) + x1 (ix2 p q) + x2 (ix2 (0 : Fin 1) q)) (Ideal.ofBits .f32 0x00000000#32) := by
  unfold k1_pay1
  rw [maximumf_apply, addf_apply, addf_apply, shapeCast_self, shapeCast_self, broadcastTo_1b_ab_apply, broadcast_apply]
  rfl

/-- The cell at an element. -/
theorem cell_at (A HT : Mat) (bias : Row) (r : Fin 131072) (q : Fin 256) :
    cell A HT bias (ix2 r q) = max (A (ix2 r q) + HT (ix2 r q) + bias (ix2 (0 : Fin 1) q)) (Ideal.ofBits .f32 0x00000000#32) := by
  unfold cell
  rw [maximumf_apply, addf_apply, addf_apply, broadcastInDim_oneRow_apply, Cert.Lib.bcast_const_apply]

variable (V : (c : Dev nD) → (b : Ref sig .tc) → Buf (Elt Ideal) ((c : Thread nD τ).loc b))

/-- The index maps over the grid: at point t the two full-height windows and the output window sit at block row t, the
    bias window at its only block. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem flushed_eq (c : Dev nD) (t : Fin cfg1.N) :
    (dat1 (F := Ideal) V c).flushed 3 t
      = ((cfg1.win 3).blk t).view.read (Elt Ideal) (cell (V c main_v39) (V c main_v0_2) (V c main_arg4)) := by
  show (cfg1.win 3).cut (grid1.coords t) ((dat1 V c).after 3 t) = _
  rw [after1_3]
  unfold out1_3
  rw [View.canon_unit_zero hz]
  simp only [View.ld_unit_zero (S := S4096x256) hz, View.ld_unit_zero (S := S1x256) hz]
  funext j
  obtain ⟨p, q, rfl⟩ : ∃ (p : Fin 4096) (q : Fin 256), j = ix2 p q := ⟨j 0, j 1, eq_ix2 j⟩
  obtain ⟨e00, e01, e10, e11, e20, e21, e30, e31⟩ := idx_facts t
  have ht : t.val < 32 := lt_of_lt_of_eq t.isLt (show cfg1.N = 32 from N_1)
  show k1_pay1 (iblk1 V c 0 t) (iblk1 V c 1 t) (iblk1 V c 2 t) (ix2 p q)
    = cell (V c main_v39) (V c main_v0_2) (V c main_arg4) (((cfg1.win 3).blk t).view.emb (ix2 p q))
  refine (payload_at _ _ _ p q).trans ?_
  have hemb : ((cfg1.win 3).blk t).view.emb (ix2 p q) = ix2 (⟨t.val * 4096 + p.val, by omega⟩ : Fin 131072) q := by
    funext a; apply Fin.ext
    match a with
    | ⟨0, _⟩ => show win1_3.index t (0 : Fin 2) * 4096 + 1 * p.val = t.val * 4096 + p.val; omega
    | ⟨1, _⟩ => show win1_3.index t (1 : Fin 2) * 256 + 1 * q.val = q.val; omega
  rw [hemb, cell_at]
  have h0 : iblk1 V c 0 t (ix2 p q) = V c main_v39 (ix2 (⟨t.val * 4096 + p.val, by omega⟩ : Fin 131072) q) := by
    show V c main_v39 (((cfg1.win 0).blk t).view.emb (ix2 p q)) = _
    refine congrArg (V c main_v39) ?_
    funext a; apply Fin.ext
    match a with
    | ⟨0, _⟩ => show win1_0.index t (0 : Fin 2) * 4096 + 1 * p.val = t.val * 4096 + p.val; omega
    | ⟨1, _⟩ => show win1_0.index t (1 : Fin 2) * 256 + 1 * q.val = q.val; omega
  have h1 : iblk1 V c 1 t (ix2 p q) = V c main_v0_2 (ix2 (⟨t.val * 4096 + p.val, by omega⟩ : Fin 131072) q) := by
    show V c main_v0_2 (((cfg1.win 1).blk t).view.emb (ix2 p q)) = _
    refine congrArg (V c main_v0_2) ?_
    funext a; apply Fin.ext
    match a with
    | ⟨0, _⟩ => show win1_1.index t (0 : Fin 2) * 4096 + 1 * p.val = t.val * 4096 + p.val; omega
    | ⟨1, _⟩ => show win1_1.index t (1 : Fin 2) * 256 + 1 * q.val = q.val; omega
  have h2 : iblk1 V c 2 t (ix2 (0 : Fin 1) q) = V c main_arg4 (ix2 (0 : Fin 1) q) := by
    show V c main_arg4 (((cfg1.win 2).blk t).view.emb (ix2 (0 : Fin 1) q)) = _
    refine congrArg (V c main_arg4) ?_
    funext a; apply Fin.ext
    match a with
    | ⟨0, _⟩ => show win1_2.index t (0 : Fin 2) * 1 + 1 * 0 = 0; omega
    | ⟨1, _⟩ => show win1_2.index t (1 : Fin 2) * 256 + 1 * q.val = q.val; omega
  rw [h0, h1, h2]

/-- An index of the array is in point t's block exactly when each coordinate is in the block's range on its axis. -/
theorem mem_blk3 (t : Fin cfg1.N) (i : S131072x256.Idx) :
    i ∈ ((cfg1.win 3).blk t).view.set ↔ ∀ a : Fin 2, win1_3.index t a * S4096x256.size a ≤ (i a).val ∧ (i a).val < win1_3.index t a * S4096x256.size a + S4096x256.size a := by
  show i ∈ ((View.whole main_v40).slice (win1_3.rect t)).set ↔ _
  rw [View.set_slice_whole, Rect.mem_set_unit]
  exact Iff.rfl

/-- The blocks of 4096 rows tile the array: row r is in the block of point r / 4096. -/
theorem cover3 (i : S131072x256.Idx) :
    ∃ t : Fin cfg1.N, (cfg1.win 3).flush t = true ∧ i ∈ ((cfg1.win 3).blk t).view.set := by
  have hi0 : (i 0).val < 131072 := (i 0).isLt
  have hi1 : (i 1).val < 256 := (i 1).isLt
  have hN : (i 0).val / 4096 < cfg1.N := lt_of_lt_of_eq (by omega : (i 0).val / 4096 < 32) (show cfg1.N = 32 from N_1).symm
  have hidx := idx_facts ⟨(i 0).val / 4096, hN⟩
  refine ⟨⟨(i 0).val / 4096, hN⟩, flush1_3 _, ?_⟩
  rw [mem_blk3]
  intro a
  match a with
  | ⟨0, _⟩ =>
    show win1_3.index ⟨(i 0).val / 4096, hN⟩ (0 : Fin 2) * 4096 ≤ (i 0).val ∧ (i 0).val < win1_3.index ⟨(i 0).val / 4096, hN⟩ (0 : Fin 2) * 4096 + 4096
    have hv : (⟨(i 0).val / 4096, hN⟩ : Fin cfg1.N).val = (i 0).val / 4096 := rfl
    omega
  | ⟨1, _⟩ =>
    show win1_3.index ⟨(i 0).val / 4096, hN⟩ (1 : Fin 2) * 256 ≤ (i 1).val ∧ (i 1).val < win1_3.index ⟨(i 0).val / 4096, hN⟩ (1 : Fin 2) * 256 + 256
    omega

/-- THE COMBINING KERNEL'S OUTPUT ARRAY after its last grid point is the cell of the three arrays it reads, as the
    kernel finds them. -/
theorem array (c : Dev nD) :
    (dat1 (F := Ideal) V c).arrAt 3 cfg1.N = cell (V c main_v39) (V c main_v0_2) (V c main_arg4) :=
  (dat1 V c).arrAt_eq_of_cover 3 _ (fun t _ => flushed_eq V c t) cover3

end Cert.TreeConv.Combine

end
-- ==== Proof.Between.lean ====
/-
  THE ARRAY OPERATIONS BETWEEN THE TWO KERNELS.

  Between the projection kernel and the combining kernel the program computes, from the left and right projections and
  the four integer arrays of the tree, the messages summed into the parents. Read back from whatever contents the
  stretch starts at, the buffer the combining kernel reads as its first operand holds `agg` of the two projection
  buffers and the integer arguments; the top projection's buffer and the bias argument are not written.
-/
import proofs.«144186_j85246510891461_1_alg».proof.Proof.Gen.KernelIdeal.Frame
import proofs.«144186_j85246510891461_1_alg».proof.Proof.Spec
import Idealize.ShloMosaic.Lib.StableHlo.Run

set_option maxRecDepth 16384

noncomputable section

namespace Cert.TreeConv.Between

open Idealize.ShloMosaic Idealize.ShloMosaic.TcCoe Idealize.SL.Sem Idealize.ShloMosaic.StableHlo
open Cert.KernelIdeal Cert.KernelIdeal.Gen

set_option maxHeartbeats 4000000 in
/-- The summed messages, as the operations between the kernels leave them: the same operations, in the same order, as
    `agg` spells (the two programs' records of the gather and of the scatter-add name the same dimensions). -/
theorem agg_after (X : Valuation τ sig (Elt Ideal)) :
    after hostOps1_4 (after hostOps1_3 (after hostOps1_2 (after hostOps1_1 (after hostOps1 X)))) (Proc.devRef .tc main_v39)
      = agg (X (Proc.devRef .tc main_v0_0)) (X (Proc.devRef .tc main_v0_1)) (X (Proc.devRef .tc main_arg5))
          (X (Proc.devRef .tc main_arg6)) (X (Proc.devRef .tc main_arg7)) (X (Proc.devRef .tc main_arg8)) := by
  simp only [hostOps1, hostOps1_1, hostOps1_2, hostOps1_3, hostOps1_4]
  after_results_simp
  rfl

set_option maxHeartbeats 4000000 in
/-- No operation between the kernels writes the top projection's buffer. -/
theorem top_after (X : Valuation τ sig (Elt Ideal)) :
    after hostOps1_4 (after hostOps1_3 (after hostOps1_2 (after hostOps1_1 (after hostOps1 X)))) (Proc.devRef .tc main_v0_2)
      = X (Proc.devRef .tc main_v0_2) := by
  simp only [hostOps1, hostOps1_1, hostOps1_2, hostOps1_3, hostOps1_4]
  after_results_simp

set_option maxHeartbeats 4000000 in
/-- No operation between the kernels writes the bias argument. -/
theorem bias_after (X : Valuation τ sig (Elt Ideal)) :
    after hostOps1_4 (after hostOps1_3 (after hostOps1_2 (after hostOps1_1 (after hostOps1 X)))) (Proc.devRef .tc main_arg4)
      = X (Proc.devRef .tc main_arg4) := by
  simp only [hostOps1, hostOps1_1, hostOps1_2, hostOps1_3, hostOps1_4]
  after_results_simp

end Cert.TreeConv.Between

end
-- ==== Proof.KernelValue.lean ====
/-
  WHAT THE TWO-KERNEL PROGRAM LEAVES IN ITS RESULT BUFFER.

  Following the boundaries of the run backwards: the result buffer holds the combining kernel's output array, which is
  the cell of the three arrays that kernel reads; the first of them is the summed messages the operations between the
  kernels computed from the left and right projections, the second is the top projection, the third the bias argument;
  the three projections are the projection kernel's output arrays, which are whole-array products of the node features
  with the three weight matrices. So the result is `cell (agg (h·W_left) (h·W_right) …) (h·W_top) bias` of the launch
  memory's arguments.
-/
import proofs.«144186_j85246510891461_1_alg».proof.Proof.Project
import proofs.«144186_j85246510891461_1_alg».proof.Proof.Combine
import proofs.«144186_j85246510891461_1_alg».proof.Proof.Between

set_option maxRecDepth 16384

noncomputable section

namespace Cert.TreeConv.KernelValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The last boundary's contents at the result buffer, as one function of the arguments at launch. -/
theorem value (c : Dev nD) :
    W7 m ρ c (Proc.devRef .tc main_v40)
      = cell (agg (proj (m ((c.tc : Thread nD τ).loc main_arg0)) (m ((c.tc : Thread nD τ).loc main_arg1))) (proj (m ((c.tc : Thread nD τ).loc main_arg0)) (m ((c.tc : Thread nD τ).loc main_arg2))) (m ((c.tc : Thread nD τ).loc main_arg5)) (m ((c.tc : Thread nD τ).loc main_arg6)) (m ((c.tc : Thread nD τ).loc main_arg7)) (m ((c.tc : Thread nD τ).loc main_arg8)))
          (proj (m ((c.tc : Thread nD τ).loc main_arg0)) (m ((c.tc : Thread nD τ).loc main_arg3))) (m ((c.tc : Thread nD τ).loc main_arg4)) := by
  have hL : W1 m ρ c (Proc.devRef .tc main_v0_0) = proj (m ((c.tc : Thread nD τ).loc main_arg0)) (m ((c.tc : Thread nD τ).loc main_arg1)) :=
    (W1_arr m ρ c 4).trans (Project.left_array (V0 m ρ) c)
  have hR : W1 m ρ c (Proc.devRef .tc main_v0_1) = proj (m ((c.tc : Thread nD τ).loc main_arg0)) (m ((c.tc : Thread nD τ).loc main_arg2)) :=
    (W1_arr m ρ c 5).trans (Project.right_array (V0 m ρ) c)
  have hT : W1 m ρ c (Proc.devRef .tc main_v0_2) = proj (m ((c.tc : Thread nD τ).loc main_arg0)) (m ((c.tc : Thread nD τ).loc main_arg3)) :=
    (W1_arr m ρ c 6).trans (Project.top_array (V0 m ρ) c)
  have h4 : W1 m ρ c (Proc.devRef .tc main_arg4) = (m ((c.tc : Thread nD τ).loc main_arg4)) := W1_of_ne m ρ c main_arg4 (by decide)
  have h5 : W1 m ρ c (Proc.devRef .tc main_arg5) = (m ((c.tc : Thread nD τ).loc main_arg5)) := W1_of_ne m ρ c main_arg5 (by decide)
  have h6 : W1 m ρ c (Proc.devRef .tc main_arg6) = (m ((c.tc : Thread nD τ).loc main_arg6)) := W1_of_ne m ρ c main_arg6 (by decide)
  have h7 : W1 m ρ c (Proc.devRef .tc main_arg7) = (m ((c.tc : Thread nD τ).loc main_arg7)) := W1_of_ne m ρ c main_arg7 (by decide)
  have h8 : W1 m ρ c (Proc.devRef .tc main_arg8) = (m ((c.tc : Thread nD τ).loc main_arg8)) := W1_of_ne m ρ c main_arg8 (by decide)
  have hagg : W6 m ρ c (Proc.devRef .tc main_v39)
      = agg (W1 m ρ c (Proc.devRef .tc main_v0_0)) (W1 m ρ c (Proc.devRef .tc main_v0_1)) (W1 m ρ c (Proc.devRef .tc main_arg5))
          (W1 m ρ c (Proc.devRef .tc main_arg6)) (W1 m ρ c (Proc.devRef .tc main_arg7)) (W1 m ρ c (Proc.devRef .tc main_arg8)) :=
    Between.agg_after (W1 m ρ c)
  have htop : W6 m ρ c (Proc.devRef .tc main_v0_2) = W1 m ρ c (Proc.devRef .tc main_v0_2) := Between.top_after (W1 m ρ c)
  have hbias : W6 m ρ c (Proc.devRef .tc main_arg4) = W1 m ρ c (Proc.devRef .tc main_arg4) := Between.bias_after (W1 m ρ c)
  calc W7 m ρ c (Proc.devRef .tc main_v40)
      = (dat1 (V6 m ρ) c).arrAt 3 cfg1.N := W7_arr m ρ c 3
    _ = cell (W6 m ρ c (Proc.devRef .tc main_v39)) (W6 m ρ c (Proc.devRef .tc main_v0_2)) (W6 m ρ c (Proc.devRef .tc main_arg4)) :=
        Combine.array (V6 m ρ) c
    _ = _ := by rw [hagg, htop, hbias, hL, hR, hT, h4, h5, h6, h7, h8]

end Cert.TreeConv.KernelValue

end
-- ==== Proof.lean ====
/-
  A TREE-CONVOLUTION CELL: TWO KERNELS AROUND ARRAY OPERATIONS AGAINST ONE PLAIN ARRAY PROGRAM.

  Every node of a tree of 131072 nodes carries a row of 256 features. A node's new row is
      max (Σ over its children e of (lw e · (h·W_left)[e] + rw e · (h·W_right)[e]) + (h·W_top)[node] + bias) 0,
  the weights lw, rw read off a child's position among its siblings. The plain program forms the three products
  h·W_left, h·W_right, h·W_top as whole-array products and then gathers, weighs, scatter-adds, adds and clamps. The
  kernel program forms the three products in one kernel, block of 4096 rows by block, each block against the whole
  weight matrices (all 256 columns contracted at once, so no partial sums are carried between blocks); runs the same
  gather, weighing and scatter-add; and adds the top projection and the bias and clamps in a second kernel, again block
  by block. Over the extended reals a block's product is the same sum over k as the whole-array product's rows, the
  operations between the kernels are the plain program's own, and the second kernel's pointwise arithmetic is the plain
  program's: both results are `cell (agg (h·W_left) (h·W_right) …) (h·W_top) bias` (Proof/Spec.lean), entry by entry.
  No law that fails at an infinity is used, so the finiteness of the inputs is not needed.

  Proof/KernelRun.lean: the kernel program runs, its result buffer at the last boundary's contents.
  Proof/Project.lean, Proof/Combine.lean: each kernel's output arrays as whole-array functions of what it reads.
  Proof/Between.lean: the operations between the kernels, read back. Proof/KernelValue.lean: the three joined.
-/
import proofs.«144186_j85246510891461_1_alg».proof.Defs
import proofs.«144186_j85246510891461_1_alg».proof.Proof.Gen.Kernel
import proofs.«144186_j85246510891461_1_alg».proof.Proof.Gen.Kernel.Frame
import proofs.«144186_j85246510891461_1_alg».proof.Proof.Gen.KernelIdeal
import proofs.«144186_j85246510891461_1_alg».proof.Proof.Gen.KernelIdeal.Frame
import proofs.«144186_j85246510891461_1_alg».proof.Proof.Gen.ReferenceIdeal
import proofs.«144186_j85246510891461_1_alg».proof.Proof.Gen.Pre_finite_inputs
import proofs.«144186_j85246510891461_1_alg».proof.Proof.Gen.ReferenceIdeal.Run
import proofs.«144186_j85246510891461_1_alg».proof.Proof.KernelRun
import proofs.«144186_j85246510891461_1_alg».proof.Proof.KernelValue

set_option maxRecDepth 16384

noncomputable section

namespace Cert.Proof

open Idealize.ShloMosaic Idealize.ShloMosaic.TcCoe Idealize.SL.Sem
open Cert.TreeConv

/-- The kernel program as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The plain program's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the cell of the summed messages, the top
    projection and the bias: the kernel program by following its run's boundaries back to the launch memory, the plain
    program because its operations, composed, are that term. -/
theorem algebraic : Cert.algebraic_KernelIdeal_ReferenceIdeal := by
  intro m ρ m' ρ' _ hagree
  refine ⟨fun c => cell (agg (proj (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (proj (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
      (proj (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (KernelValue.value m ρ c), (h c).2⟩) (KernelRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [e0, e1, e2, e3, e4, e5, e6, e7, e8]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
